-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S192x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S1x256 : Shape := ⟨2, ![1, 256]⟩
abbrev S1x64 : Shape := ⟨2, ![1, 64]⟩
abbrev S5000x64 : Shape := ⟨2, ![5000, 64]⟩
abbrev S5000x192 : Shape := ⟨2, ![5000, 192]⟩
abbrev S5000x256 : Shape := ⟨2, ![5000, 256]⟩

abbrev nBuf : Space → Nat
  | .hbm => 19
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S1x256, .f32⟩
  | .hbm, ⟨17, _⟩ => ⟨S1x64, .f32⟩
  | .hbm, ⟨18, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S192x256, .f32⟩
  | .local _ .vmem, ⟨7, _⟩ => ⟨S1x256, .f32⟩
  | .local _ .vmem, ⟨8, _⟩ => ⟨S256x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  concatenates_S5000x64_S5000x64_S5000x64_S5000x192_d1 : Shape.Concatenates [S5000x64, S5000x64, S5000x64] S5000x192 1
  inb_S192x256_S192x256_0_0 : ∀ a, (![0, 0] : Fin 2 → Nat) a + S192x256.size a ≤ S192x256.size a
  h_S192x256 : 0 < S192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S800000x1_S800000x64_1_0_0_1_wf : ScatterDims.WF S50000x64 S800000x1 S800000x64 [1] [0] [0] 1
  dot_S5000x192_S192x256_S5000x256_1_0_0_1_n_n_wf : DotDims.WF S5000x192 S192x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x256.size a ≤ S192x256.size a
  hwx0_3 : ∀ i : grid0.Coords, EltTy.bits .f32 = 32 ∨ (Rect.block (s := S192x256) S192x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x192_S192x256_S5000x256_1_0_0_1_n_n : DotDims S5000x192 S192x256 S5000x256 where
  lhsContracting := [1]
  rhsContracting := [0]
  lhsNonContracting := [0]
  rhsNonContracting := [1]
  lhsBatch := []
  rhsBatch := []
  wf := dot_S5000x192_S192x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x192, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibJoinColumns.lean ====
/-
  Three arrays of `n` rows and 64 columns laid side by side along the column axis make an array of `n` rows and
  192 columns. Read at row `p` and column `j`, the joined array is the first array's entry `(p, j)` for `j < 64`,
  the second's entry `(p, j - 64)` for `64 ≤ j < 128`, and the third's entry `(p, j - 128)` from there on. The row
  count is arbitrary, so the same reading serves a block of rows and the whole array alike.
-/
import Idealize.ShloMosaic.Lib.Pipeline.Value
import Idealize.ShloMosaic.Lib.ValueIdx

namespace Idealize.ShloMosaic.JoinColumns

open Idealize.ShloMosaic Idealize.ShloMosaic.ValueIdx

variable {α : Type}

/-- Entry `j` of row `p` of the three arrays laid side by side: which array it comes from is decided by the
    column alone, and the row is the same in all three. -/
def joinRow {n : Nat} (A B X : (⟨2, ![n, 64]⟩ : Shape).Idx → α) (p : Fin n) (j : Fin 192) : α :=
  if h1 : j.val < 64 then A (ix2 p ⟨j.val, h1⟩)
  else if h2 : j.val < 128 then B (ix2 p ⟨j.val - 64, by omega⟩)
  else X (ix2 p ⟨j.val - 128, by omega⟩)

/-- The joined row depends on the three arrays only through their rows `p`: if two triples of arrays (possibly of
    different heights) agree on the rows in question, their joined rows agree. -/
theorem joinRow_congr {n n' : Nat} (A B X : (⟨2, ![n, 64]⟩ : Shape).Idx → α)
    (A' B' X' : (⟨2, ![n', 64]⟩ : Shape).Idx → α) (p : Fin n) (p' : Fin n')
    (hA : ∀ q : Fin 64, A (ix2 p q) = A' (ix2 p' q)) (hB : ∀ q : Fin 64, B (ix2 p q) = B' (ix2 p' q))
    (hX : ∀ q : Fin 64, X (ix2 p q) = X' (ix2 p' q)) (j : Fin 192) :
    joinRow A B X p j = joinRow A' B' X' p' j := by
  unfold joinRow
  split_ifs
  · exact hA _
  · exact hB _
  · exact hX _

/-- **The concatenation read at an index.** The three-piece concatenation along axis 1, at `(p, j)`, is the joined
    row's entry: the piece is the one whose span of 64 columns holds `j`, the column inside it `j` less the widths
    of the pieces before. -/
theorem concatenate_apply {n : Nat} (A B X : (⟨2, ![n, 64]⟩ : Shape).Idx → α)
    (h : Shape.Concatenates [(⟨2, ![n, 64]⟩ : Shape), ⟨2, ![n, 64]⟩, ⟨2, ![n, 64]⟩] ⟨2, ![n, 192]⟩ 1)
    (p : Fin n) (j : Fin 192) :
    concatenate (⟨2, ![n, 192]⟩ : Shape) 1 [⟨⟨2, ![n, 64]⟩, A⟩, ⟨⟨2, ![n, 64]⟩, B⟩, ⟨⟨2, ![n, 64]⟩, X⟩] h (ix2 p j)
      = joinRow A B X p j := by
  unfold joinRow
  split_ifs with h1 h2
  · refine concatenate_apply_piece (t := ⟨2, ![n, 192]⟩) 1 [⟨⟨2, ![n, 64]⟩, A⟩, ⟨⟨2, ![n, 64]⟩, B⟩, ⟨⟨2, ![n, 64]⟩, X⟩] h (ix2 p j) 0 (by simp) ⟨2, ![n, 64]⟩ A rfl rfl 0 rfl (ix2 p ⟨j.val, h1⟩) (fun b hb => ?_) ?_
    · match b with
      | ⟨0, _⟩ => rfl
      | ⟨1, _⟩ => exact absurd rfl hb
    · show 0 + j.val = j.val
      omega
  · refine concatenate_apply_piece (t := ⟨2, ![n, 192]⟩) 1 [⟨⟨2, ![n, 64]⟩, A⟩, ⟨⟨2, ![n, 64]⟩, B⟩, ⟨⟨2, ![n, 64]⟩, X⟩] h (ix2 p j) 1 (by simp) ⟨2, ![n, 64]⟩ B rfl rfl 64 rfl (ix2 p ⟨j.val - 64, by omega⟩) (fun b hb => ?_) ?_
    · match b with
      | ⟨0, _⟩ => rfl
      | ⟨1, _⟩ => exact absurd rfl hb
    · show 64 + (j.val - 64) = j.val
      omega
  · refine concatenate_apply_piece (t := ⟨2, ![n, 192]⟩) 1 [⟨⟨2, ![n, 64]⟩, A⟩, ⟨⟨2, ![n, 64]⟩, B⟩, ⟨⟨2, ![n, 64]⟩, X⟩] h (ix2 p j) 2 (by simp) ⟨2, ![n, 64]⟩ X rfl rfl 128 rfl (ix2 p ⟨j.val - 128, by omega⟩) (fun b hb => ?_) ?_
    · match b with
      | ⟨0, _⟩ => rfl
      | ⟨1, _⟩ => exact absurd rfl hb
    · show 128 + (j.val - 128) = j.val
      omega

end Idealize.ShloMosaic.JoinColumns
-- ==== Proof.NodeUpdate.lean ====
/-
  The node update, as one function of its arguments, entry by entry.

  Every node `p` has three rows of 64 numbers: the sum of the features of its incoming edges, the sum of the
  features of its outgoing edges, and its own features. Laid side by side they are one row `x` of 192 numbers.
  The update is a two-layer perceptron applied to each row independently:

    hidden unit `k` (of 256):  `h k = max (∑ j, x j · W1 (j, k) + b1 k) 0`
    output `q` (of 64):        `∑ k, h k · W2 (k, q) + b2 q`

  over the extended reals. The zero of the rectifier is kept as the word both programs print for it, so it is never
  evaluated. Nothing here depends on how many rows are processed together: a row's output is a function of that
  row and the weights alone, which is why a block of rows and the whole array give the same answer.
-/
import Idealize.ShloMosaic.PureOps.Ideal
import Idealize.ShloMosaic.Lib.ValueIdx
import proofs.«160918_j71425306132748_2_alg».proof.Proof.LibJoinColumns

noncomputable section

namespace Cert.NodeUpdate

open Idealize.ShloMosaic Idealize.ShloMosaic.ValueIdx Idealize.ShloMosaic.JoinColumns

/-- Hidden unit `k` of one row `x`: the row's product with column `k` of the first weight matrix, plus the bias,
    rectified. -/
def hiddenUnit (x : Fin 192 → EReal) (W1 : (⟨2, ![192, 256]⟩ : Shape).Idx → EReal) (b1 : Fin 256 → EReal)
    (k : Fin 256) : EReal :=
  max ((∑ j : Fin 192, x j * W1 (ix2 j k)) + b1 k) (Ideal.ofBits .f32 0x00000000#32)

/-- Output `q` of one row `x`: the hidden layer's product with column `q` of the second weight matrix, plus the
    bias. -/
def rowOut (x : Fin 192 → EReal) (W1 : (⟨2, ![192, 256]⟩ : Shape).Idx → EReal) (b1 : Fin 256 → EReal)
    (W2 : (⟨2, ![256, 64]⟩ : Shape).Idx → EReal) (b2 : Fin 64 → EReal) (q : Fin 64) : EReal :=
  (∑ k : Fin 256, hiddenUnit x W1 b1 k * W2 (ix2 k q)) + b2 q

/-- A row's output is determined by the row's entries, the two weight matrices and the two biases' entries. -/
theorem rowOut_ext (x x' : Fin 192 → EReal) (W1 W1' : (⟨2, ![192, 256]⟩ : Shape).Idx → EReal) (b1 b1' : Fin 256 → EReal)
    (W2 W2' : (⟨2, ![256, 64]⟩ : Shape).Idx → EReal) (b2 b2' : Fin 64 → EReal)
    (hx : ∀ j, x j = x' j) (hW1 : W1 = W1') (hb1 : ∀ k, b1 k = b1' k) (hW2 : W2 = W2') (hb2 : ∀ q, b2 q = b2' q)
    (q : Fin 64) : rowOut x W1 b1 W2 b2 q = rowOut x' W1' b1' W2' b2' q := by
  obtain rfl : x = x' := funext hx
  obtain rfl : b1 = b1' := funext hb1
  obtain rfl : b2 = b2' := funext hb2
  subst hW1 hW2
  rfl

/-- The whole update: entry `(p, q)` of the result is output `q` of node `p`'s joined row. `A` and `B` are the two
    aggregated arrays (incoming, outgoing), `X` the nodes' own features. -/
def update (A B X : (⟨2, ![50000, 64]⟩ : Shape).Idx → EReal) (W1 : (⟨2, ![192, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal :=
  fun i => rowOut (joinRow A B X (i 0)) W1 (fun k => b1 (ix1 k)) W2 (fun q => b2 (ix1 q)) (i 1)

theorem update_apply (A B X : (⟨2, ![50000, 64]⟩ : Shape).Idx → EReal) (W1 : (⟨2, ![192, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (p : Fin 50000) (q : Fin 64) :
    update A B X W1 b1 W2 b2 (ix2 p q)
      = rowOut (joinRow A B X p) W1 (fun k => b1 (ix1 k)) W2 (fun q => b2 (ix1 q)) q := rfl

end Cert.NodeUpdate

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.BlockValue.lean ====
/-
  What the kernel body stores for one block of 5000 rows, read entry by entry at the ideal values.

  The body loads three blocks of 5000 × 64 (incoming sums, outgoing sums, node features), the two weight matrices
  and the two biases as one-row matrices. It lays the three blocks side by side, multiplies by the first weight
  matrix, adds the first bias along the rows, rectifies, multiplies by the second weight matrix and adds the second
  bias. Its roundings to a narrower format are the identity at the ideal values, a matrix product into the zero
  accumulator is the plain sum over the contracted axis, and a one-row matrix broadcast down the rows reads its one
  row. So entry `(r, q)` of the stored block is the perceptron's output `q` on row `r` of the joined block.
-/
import proofs.«160918_j71425306132748_2_alg».proof.Proof.Gen.KernelIdeal.Skeleton
import proofs.«160918_j71425306132748_2_alg».proof.Proof.NodeUpdate
import proofs.«160918_j71425306132748_2_alg».proof.Proof.LibIndexReads
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open Idealize.ShloMosaic.JoinColumns Cert.NodeUpdate

/-- The left operand's row axis is not contracted: it carries the output's row. -/
theorem product1_lhs_row (i : S5000x256.Idx) (c : dot_S5000x192_S192x256_S5000x256_1_0_0_1_n_n.contr.Idx) : (dot_S5000x192_S192x256_S5000x256_1_0_0_1_n_n.lhsIdx i c 0).val = (i 0).val := by
  unfold DotDims.lhsIdx
  rw [dif_neg (show ¬(0 : Fin S5000x192.rank) ∈ dot_S5000x192_S192x256_S5000x256_1_0_0_1_n_n.lhsBatch by decide),
    dif_pos (show (0 : Fin S5000x192.rank) ∈ dot_S5000x192_S192x256_S5000x256_1_0_0_1_n_n.lhsNonContracting by decide)]
  rfl

/-- The right operand's column axis is not contracted: it carries the output's column. -/
theorem product1_rhs_col (i : S5000x256.Idx) (c : dot_S5000x192_S192x256_S5000x256_1_0_0_1_n_n.contr.Idx) : (dot_S5000x192_S192x256_S5000x256_1_0_0_1_n_n.rhsIdx i c 1).val = (i 1).val := by
  unfold DotDims.rhsIdx
  rw [dif_neg (show ¬(1 : Fin S192x256.rank) ∈ dot_S5000x192_S192x256_S5000x256_1_0_0_1_n_n.rhsBatch by decide),
    dif_pos (show (1 : Fin S192x256.rank) ∈ dot_S5000x192_S192x256_S5000x256_1_0_0_1_n_n.rhsNonContracting by decide)]
  rfl

/-- The first product, `[5000, 192] · [192, 256]` into the zero accumulator, at `(r, k)`: row `r` of the left operand
    against column `k` of the right. -/
theorem product1_apply (L : FVec Ideal S5000x192 .bf16) (R : FVec Ideal S192x256 .bf16) (r : Fin 5000) (k : Fin 256) :
    matmul dot_S5000x192_S192x256_S5000x256_1_0_0_1_n_n none L R (constant S5000x256 .f32 0x00000000#32) (ix2 r k)
      = ∑ j : Fin 192, L (ix2 r j) * R (ix2 j k) := by
  refine Cert.IndexReads.matmul_zero_single dot_S5000x192_S192x256_S5000x256_1_0_0_1_n_n 192 rfl rfl none L R (ix2 r k)
    (fun j => ix2 r j) (fun j => ix2 j k) (fun j => ?_) (fun j => ?_)
  · have hk := contrEquiv1_symm_val dot_S5000x192_S192x256_S5000x256_1_0_0_1_n_n 192 rfl rfl j
    funext a
    apply Fin.ext
    match a with
    | ⟨0, _⟩ => exact product1_lhs_row _ _
    | ⟨1, _⟩ => exact (dot_S5000x192_S192x256_S5000x256_1_0_0_1_n_n.lhsIdx_val_of_single rfl _ _).trans hk
  · have hk := contrEquiv1_symm_val dot_S5000x192_S192x256_S5000x256_1_0_0_1_n_n 192 rfl rfl j
    funext a
    apply Fin.ext
    match a with
    | ⟨0, _⟩ => exact (dot_S5000x192_S192x256_S5000x256_1_0_0_1_n_n.rhsIdx_val_of_single rfl _ _).trans hk
    | ⟨1, _⟩ => exact product1_rhs_col _ _

/-- The left operand's row axis is not contracted: it carries the output's row. -/
theorem product2_lhs_row (i : S5000x64.Idx) (c : dot_S5000x256_S256x64_S5000x64_1_0_0_1_n_n.contr.Idx) : (dot_S5000x256_S256x64_S5000x64_1_0_0_1_n_n.lhsIdx i c 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl

/-- The right operand's column axis is not contracted: it carries the output's column. -/
theorem product2_rhs_col (i : S5000x64.Idx) (c : dot_S5000x256_S256x64_S5000x64_1_0_0_1_n_n.contr.Idx) : (dot_S5000x256_S256x64_S5000x64_1_0_0_1_n_n.rhsIdx i c 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The second product, `[5000, 256] · [256, 64]` into the zero accumulator, at `(r, q)`. -/
theorem product2_apply (L : FVec Ideal S5000x256 .bf16) (R : FVec Ideal S256x64 .bf16) (r : Fin 5000) (q : Fin 64) :
    matmul dot_S5000x256_S256x64_S5000x64_1_0_0_1_n_n none L R (constant S5000x64 .f32 0x00000000#32) (ix2 r q)
      = ∑ k : Fin 256, L (ix2 r k) * R (ix2 k q) := by
  refine Cert.IndexReads.matmul_zero_single dot_S5000x256_S256x64_S5000x64_1_0_0_1_n_n 256 rfl rfl none L R (ix2 r q)
    (fun k => ix2 r k) (fun k => ix2 k q) (fun k => ?_) (fun k => ?_)
  · have hk := contrEquiv1_symm_val dot_S5000x256_S256x64_S5000x64_1_0_0_1_n_n 256 rfl rfl k
    funext a
    apply Fin.ext
    match a with
    | ⟨0, _⟩ => exact product2_lhs_row _ _
    | ⟨1, _⟩ => exact (dot_S5000x256_S256x64_S5000x64_1_0_0_1_n_n.lhsIdx_val_of_single rfl _ _).trans hk
  · have hk := contrEquiv1_symm_val dot_S5000x256_S256x64_S5000x64_1_0_0_1_n_n 256 rfl rfl k
    funext a
    apply Fin.ext
    match a with
    | ⟨0, _⟩ => exact (dot_S5000x256_S256x64_S5000x64_1_0_0_1_n_n.rhsIdx_val_of_single rfl _ _).trans hk
    | ⟨1, _⟩ => exact product2_rhs_col _ _

/-- The first bias, loaded as a one-row matrix and broadcast down the 5000 rows, at `(r, k)`: its entry `k`. -/
theorem bias1_apply (x4 : Vec Ideal S1x256 .f32) (r : Fin 5000) (k : Fin 256) :
    broadcastTo S5000x256 (shapeCast S1x256 x4 shapeCasts_S1x256_S1x256) broadcasts_S1x256_S5000x256 (ix2 r k)
      = x4 (ix2 (0 : Fin 1) k) := by
  refine (broadcastTo_1b_ab_apply _ broadcasts_S1x256_S5000x256 r k).trans ?_
  exact congrFun (shapeCast_self x4 shapeCasts_S1x256_S1x256) _

/-- The second bias likewise, at `(r, q)`. -/
theorem bias2_apply (x6 : Vec Ideal S1x64 .f32) (r : Fin 5000) (q : Fin 64) :
    broadcastTo S5000x64 (shapeCast S1x64 x6 shapeCasts_S1x64_S1x64) broadcasts_S1x64_S5000x64 (ix2 r q)
      = x6 (ix2 (0 : Fin 1) q) := by
  refine (broadcastTo_1b_ab_apply _ broadcasts_S1x64_S5000x64 r q).trans ?_
  exact congrFun (shapeCast_self x6 shapeCasts_S1x64_S1x64) _

/-- **The stored block, entry by entry**: the perceptron's output `q` on row `r` of the three loaded blocks laid side
    by side. -/
theorem stored_apply (x0 x1 x2 : Vec Ideal S5000x64 .f32) (x3 : Vec Ideal S192x256 .f32) (x4 : Vec Ideal S1x256 .f32)
    (x5 : Vec Ideal S256x64 .f32) (x6 : Vec Ideal S1x64 .f32) (r : Fin 5000) (q : Fin 64) :
    k0_pay1 (F := Ideal) x0 x1 x2 x3 x4 x5 x6 (ix2 r q)
      = rowOut (joinRow x0 x1 x2 r) x3 (fun k => x4 (ix2 (0 : Fin 1) k)) x5 (fun q => x6 (ix2 (0 : Fin 1) q)) q := by
  unfold k0_pay1 rowOut
  refine (addf_apply _ _ _).trans (congrArg₂ (· + ·) ?_ (bias2_apply x6 r q))
  refine (product2_apply _ _ r q).trans (Finset.sum_congr rfl fun k _ => congrArg₂ (· * ·) ?_ rfl)
  unfold hiddenUnit
  refine (maximumf_apply _ _ _).trans (congrArg₂ max ?_ rfl)
  refine (addf_apply _ _ _).trans (congrArg₂ (· + ·) ?_ (bias1_apply x4 r k))
  refine (product1_apply _ _ r k).trans (Finset.sum_congr rfl fun j _ => congrArg₂ (· * ·) ?_ rfl)
  refine (JoinColumns.concatenate_apply _ _ _ concatenates_S5000x64_S5000x64_S5000x64_S5000x192_d1 r j).trans ?_
  refine joinRow_congr _ _ _ x0 x1 x2 r r (fun c => ?_) (fun c => ?_) (fun c => rfl) j
  · exact congrFun (shapeCast_self x0 shapeCasts_S5000x64_S5000x64) _
  · exact congrFun (shapeCast_self x1 shapeCasts_S5000x64_S5000x64) _

end Cert.KernelIdeal.BlockValue

end
-- ==== Proof.RegionEntry.lean ====
/-
  What the region finds in its windows' arrays when it is entered.

  Before the region the program sums edge features into nodes twice — once by the receiving node, once by the
  sending node: each is a scatter-add of the 800000 × 64 edge features into a 50000 × 64 array of zeros, row `e` of
  the features added into the row its index vector names. It also views the two bias vectors as one-row matrices.
  The aggregation is named here once, as a function of the features and of an index vector, and never opened: the
  reference aggregates in the same way, so the two programs meet at this term.
-/
import proofs.«160918_j71425306132748_2_alg».proof.Proof.Gen.KernelIdeal.Frame
import Idealize.ShloMosaic.Lib.StableHlo.Run
import Idealize.ShloMosaic.Lib.ValueLayout

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

/-- Edge features summed into nodes: a scatter-add into zeros, edge `e`'s row added into row `idx e`. -/
def aggregate (feat : (⟨S800000x64, .f32⟩ : BufTy).Contents (Elt Ideal)) (idx : (⟨S800000, .i32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 idx) feat

variable (m : (ℓ : Loc nD τ sig) → Buf (Elt Ideal) ℓ)

/-- The first window's array: the features aggregated by receiver. -/
theorem entry_incoming (c : Dev nD) :
    (V m c main_v2 : S50000x64.Idx → EReal)
      = aggregate (m ((c : Thread nD τ).loc main_arg1)) (m ((c : Thread nD τ).loc main_arg3)) := by
  dsimp only [Gen.V, Gen.hostOps0]
  after_results
  rfl

/-- The second window's array: the features aggregated by sender. -/
theorem entry_outgoing (c : Dev nD) :
    (V m c main_v5 : S50000x64.Idx → EReal)
      = aggregate (m ((c : Thread nD τ).loc main_arg1)) (m ((c : Thread nD τ).loc main_arg2)) := by
  dsimp only [Gen.V, Gen.hostOps0]
  after_results
  rfl

/-- The first bias as the region finds it: the 256-vector viewed as one row; entry `(0, k)` is the vector's entry `k`. -/
theorem entry_bias1 (c : Dev nD) (k : Fin 256) :
    (V m c main_v6 : S1x256.Idx → EReal) (ix2 (0 : Fin 1) k)
      = (m ((c : Thread nD τ).loc main_arg5) : S256.Idx → EReal) (ix1 k) := by
  have e : (V m c main_v6 : S1x256.Idx → EReal)
      = shapeCast S1x256 (m ((c : Thread nD τ).loc main_arg5) : S256.Idx → EReal) shapeCasts_S256_S1x256 := by
    dsimp only [Gen.V, Gen.hostOps0]
    after_results
    rfl
  rw [e]
  exact shapeCast_a_1a_apply _ shapeCasts_S256_S1x256 0 k

/-- The second bias likewise: entry `(0, q)` of the one-row view is the 64-vector's entry `q`. -/
theorem entry_bias2 (c : Dev nD) (q : Fin 64) :
    (V m c main_v7 : S1x64.Idx → EReal) (ix2 (0 : Fin 1) q)
      = (m ((c : Thread nD τ).loc main_arg7) : S64.Idx → EReal) (ix1 q) := by
  have e : (V m c main_v7 : S1x64.Idx → EReal)
      = shapeCast S1x64 (m ((c : Thread nD τ).loc main_arg7) : S64.Idx → EReal) shapeCasts_S64_S1x64 := by
    dsimp only [Gen.V, Gen.hostOps0]
    after_results
    rfl
  rw [e]
  exact shapeCast_a_1a_apply _ shapeCasts_S64_S1x64 0 q

end Cert.KernelIdeal.RegionEntry

end
-- ==== Proof.Assemble.lean ====
/-
  From the blocks the grid points write to the whole result array.

  The grid has ten points; point `t` reads rows `5000 t … 5000 t + 4999` of the two aggregated arrays and of the node
  features, reads the weights and biases whole, and writes rows `5000 t … 5000 t + 4999` of the result. Since a row's
  output depends on that row alone, what point `t` writes is exactly those rows of the whole-array update; the ten
  blocks cover all 50000 rows, so the result array ends holding the update of the arguments.
-/
import proofs.«160918_j71425306132748_2_alg».proof.Proof.Gen.KernelIdeal.Value
import proofs.«160918_j71425306132748_2_alg».proof.Proof.BlockValue
import proofs.«160918_j71425306132748_2_alg».proof.Proof.RegionEntry
import Idealize.ShloMosaic.Lib.Pipeline.Value

noncomputable section

namespace Cert.KernelIdeal.Assemble

open Cert.KernelIdeal Cert.KernelIdeal.Gen Idealize.ShloMosaic Idealize.ShloMosaic.TcCoe Idealize.SL.Sem
open Idealize.ShloMosaic.ValueIdx Idealize.ShloMosaic.JoinColumns Cert.NodeUpdate
open Idealize.ShloMosaic.Pipeline (Dat)
open Cert.KernelIdeal.RegionEntry Cert.KernelIdeal.BlockValue

theorem zero_offsets : (![0, 0] : Fin 2 → Nat) = fun _ => 0 := funext fun a => by fin_cases a <;> rfl

/-- The windows that move with the grid — the two aggregates, the node features and the result — sit at block row
    `t`, block column 0, at point `t` (decided over the ten points). -/
theorem row_windows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

/-- The weights' and biases' windows stay at block (0, 0): each block is its whole array. -/
theorem whole_windows : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## A window's block, read off an arbitrary array

The arrays are variables here: a block is a rectangle of rows of whatever the window sits over, and nothing about the
array's contents enters. -/

/-- Row `r` of point `t`'s block of window 0 is row `5000 t + r` of whatever array the window sits over. -/
theorem rows_read0 (t : Fin cfg0.N) (A : S50000x64.Idx → EReal) (r : Fin 5000) (q : Fin 64) (p : Fin 50000)
    (hp : p.val = t.val * 5000 + r.val) :
    ((cfg0.win 0).blk t).view.read (Elt Ideal) A (ix2 r q) = A (ix2 p q) := by
  obtain ⟨e00, e01, e10, e11, e20, e21, -, -⟩ := row_windows t
  rw [View.read_apply]
  show A _ = A _
  refine congrArg A ?_
  funext a
  apply Fin.ext
  match a with
  | ⟨0, _⟩ =>
    show win0_0.index t (0 : Fin 2) * 5000 + 1 * r.val = p.val
    rw [e00, hp]; omega
  | ⟨1, _⟩ =>
    show win0_0.index t (1 : Fin 2) * 64 + 1 * q.val = q.val
    rw [e01]; omega

/-- Row `r` of point `t`'s block of window 1 is row `5000 t + r` of whatever array the window sits over. -/
theorem rows_read1 (t : Fin cfg0.N) (A : S50000x64.Idx → EReal) (r : Fin 5000) (q : Fin 64) (p : Fin 50000)
    (hp : p.val = t.val * 5000 + r.val) :
    ((cfg0.win 1).blk t).view.read (Elt Ideal) A (ix2 r q) = A (ix2 p q) := by
  obtain ⟨e00, e01, e10, e11, e20, e21, -, -⟩ := row_windows t
  rw [View.read_apply]
  show A _ = A _
  refine congrArg A ?_
  funext a
  apply Fin.ext
  match a with
  | ⟨0, _⟩ =>
    show win0_1.index t (0 : Fin 2) * 5000 + 1 * r.val = p.val
    rw [e10, hp]; omega
  | ⟨1, _⟩ =>
    show win0_1.index t (1 : Fin 2) * 64 + 1 * q.val = q.val
    rw [e11]; omega

/-- Row `r` of point `t`'s block of window 2 is row `5000 t + r` of whatever array the window sits over. -/
theorem rows_read2 (t : Fin cfg0.N) (A : S50000x64.Idx → EReal) (r : Fin 5000) (q : Fin 64) (p : Fin 50000)
    (hp : p.val = t.val * 5000 + r.val) :
    ((cfg0.win 2).blk t).view.read (Elt Ideal) A (ix2 r q) = A (ix2 p q) := by
  obtain ⟨e00, e01, e10, e11, e20, e21, -, -⟩ := row_windows t
  rw [View.read_apply]
  show A _ = A _
  refine congrArg A ?_
  funext a
  apply Fin.ext
  match a with
  | ⟨0, _⟩ =>
    show win0_2.index t (0 : Fin 2) * 5000 + 1 * r.val = p.val
    rw [e20, hp]; omega
  | ⟨1, _⟩ =>
    show win0_2.index t (1 : Fin 2) * 64 + 1 * q.val = q.val
    rw [e21]; omega

/-- Window 3's block is the whole of whatever array it sits over (the first weight matrix). -/
theorem whole_read3 (t : Fin cfg0.N) (W : S192x256.Idx → EReal) :
    ((cfg0.win 3).blk t).view.read (Elt Ideal) W = W := by
  obtain ⟨e30, e31, e40, e41, e50, e51, e60, e61⟩ := whole_windows t
  funext y
  rw [View.read_apply]
  show W _ = W y
  refine congrArg W ?_
  funext a
  apply Fin.ext
  match a with
  | ⟨0, _⟩ =>
    show win0_3.index t (0 : Fin 2) * 192 + 1 * (y 0).val = (y 0).val
    rw [e30]; omega
  | ⟨1, _⟩ =>
    show win0_3.index t (1 : Fin 2) * 256 + 1 * (y 1).val = (y 1).val
    rw [e31]; omega

/-- Window 4's block is the whole of whatever array it sits over (the first bias as one row). -/
theorem whole_read4 (t : Fin cfg0.N) (W : S1x256.Idx → EReal) :
    ((cfg0.win 4).blk t).view.read (Elt Ideal) W = W := by
  obtain ⟨e30, e31, e40, e41, e50, e51, e60, e61⟩ := whole_windows t
  funext y
  rw [View.read_apply]
  show W _ = W y
  refine congrArg W ?_
  funext a
  apply Fin.ext
  match a with
  | ⟨0, _⟩ =>
    show win0_4.index t (0 : Fin 2) * 1 + 1 * (y 0).val = (y 0).val
    rw [e40]; omega
  | ⟨1, _⟩ =>
    show win0_4.index t (1 : Fin 2) * 256 + 1 * (y 1).val = (y 1).val
    rw [e41]; omega

/-- Window 5's block is the whole of whatever array it sits over (the second weight matrix). -/
theorem whole_read5 (t : Fin cfg0.N) (W : S256x64.Idx → EReal) :
    ((cfg0.win 5).blk t).view.read (Elt Ideal) W = W := by
  obtain ⟨e30, e31, e40, e41, e50, e51, e60, e61⟩ := whole_windows t
  funext y
  rw [View.read_apply]
  show W _ = W y
  refine congrArg W ?_
  funext a
  apply Fin.ext
  match a with
  | ⟨0, _⟩ =>
    show win0_5.index t (0 : Fin 2) * 256 + 1 * (y 0).val = (y 0).val
    rw [e50]; omega
  | ⟨1, _⟩ =>
    show win0_5.index t (1 : Fin 2) * 64 + 1 * (y 1).val = (y 1).val
    rw [e51]; omega

/-- Window 6's block is the whole of whatever array it sits over (the second bias as one row). -/
theorem whole_read6 (t : Fin cfg0.N) (W : S1x64.Idx → EReal) :
    ((cfg0.win 6).blk t).view.read (Elt Ideal) W = W := by
  obtain ⟨e30, e31, e40, e41, e50, e51, e60, e61⟩ := whole_windows t
  funext y
  rw [View.read_apply]
  show W _ = W y
  refine congrArg W ?_
  funext a
  apply Fin.ext
  match a with
  | ⟨0, _⟩ =>
    show win0_6.index t (0 : Fin 2) * 1 + 1 * (y 0).val = (y 0).val
    rw [e60]; omega
  | ⟨1, _⟩ =>
    show win0_6.index t (1 : Fin 2) * 64 + 1 * (y 1).val = (y 1).val
    rw [e61]; omega

/-! ## What a point writes back -/

/-- WHAT POINT `t` WRITES BACK, for any loaded blocks: if the three row blocks are rows `5000 t … 5000 t + 4999` of
    arrays `A`, `B`, `X`, the weight blocks are `W1`, `W2` and the one-row bias blocks read the vectors `b1`, `b2`,
    then what the body stores, written through the result's block at `t`, is block `t` of the update of those arrays:
    entry `(r, q)` of the stored block is the perceptron's output on row `r` of the joined blocks, and that row is row
    `5000 t + r` of the joined arrays. -/
theorem point_writes (t : Fin cfg0.N) (x0 x1 x2 : Vec Ideal S5000x64 .f32) (x3 : Vec Ideal S192x256 .f32)
    (x4 : Vec Ideal S1x256 .f32) (x5 : Vec Ideal S256x64 .f32) (x6 : Vec Ideal S1x64 .f32)
    (A B X : S50000x64.Idx → EReal) (W1 : S192x256.Idx → EReal) (b1 : S256.Idx → EReal) (W2 : S256x64.Idx → EReal)
    (b2 : S64.Idx → EReal)
    (hA : ∀ (r : Fin 5000) (q : Fin 64) (p : Fin 50000), p.val = t.val * 5000 + r.val → x0 (ix2 r q) = A (ix2 p q))
    (hB : ∀ (r : Fin 5000) (q : Fin 64) (p : Fin 50000), p.val = t.val * 5000 + r.val → x1 (ix2 r q) = B (ix2 p q))
    (hX : ∀ (r : Fin 5000) (q : Fin 64) (p : Fin 50000), p.val = t.val * 5000 + r.val → x2 (ix2 r q) = X (ix2 p q))
    (hW1 : x3 = W1) (hb1 : ∀ k : Fin 256, x4 (ix2 (0 : Fin 1) k) = b1 (ix1 k)) (hW2 : x5 = W2)
    (hb2 : ∀ q : Fin 64, x6 (ix2 (0 : Fin 1) q) = b2 (ix1 q)) :
    (cfg0.win 7).cut (grid0.coords t) (k0_pay1 (F := Ideal) x0 x1 x2 x3 x4 x5 x6)
      = ((cfg0.win 7).blk t).view.read (Elt Ideal) (update A B X W1 b1 W2 b2) := by
  obtain ⟨-, -, -, -, -, -, e70, e71⟩ := row_windows t
  have ht : t.val < 10 := lt_of_lt_of_eq t.isLt N_0
  funext y
  obtain ⟨r, q, rfl⟩ : ∃ (r : Fin 5000) (q : Fin 64), y = ix2 r q := ⟨y 0, y 1, eq_ix2 y⟩
  have hemb : ((cfg0.win 7).blk t).view.emb (ix2 r q) = (ix2 (⟨t.val * 5000 + r.val, by omega⟩ : Fin 50000) q : S50000x64.Idx) := by
    funext a
    apply Fin.ext
    match a with
    | ⟨0, _⟩ =>
      show win0_7.index t (0 : Fin 2) * 5000 + 1 * r.val = t.val * 5000 + r.val
      rw [e70]; omega
    | ⟨1, _⟩ =>
      show win0_7.index t (1 : Fin 2) * 64 + 1 * q.val = q.val
      rw [e71]; omega
  show k0_pay1 (F := Ideal) x0 x1 x2 x3 x4 x5 x6 (ix2 r q) = update A B X W1 b1 W2 b2 (((cfg0.win 7).blk t).view.emb (ix2 r q))
  rw [hemb, update_apply]
  refine (stored_apply x0 x1 x2 x3 x4 x5 x6 r q).trans ?_
  exact rowOut_ext _ _ _ _ _ _ _ _ _ _
    (fun j => joinRow_congr _ _ _ _ _ _ r _ (fun q' => hA r q' _ rfl) (fun q' => hB r q' _ rfl) (fun q' => hX r q' _ rfl) j)
    hW1 hb1 hW2 hb2 q

/-- An index of the result array is in point `t`'s block iff each coordinate is in the block's range on its axis. -/
theorem mem_block (t : Fin cfg0.N) (i : S50000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v8).slice (win0_7.rect t)).set ↔ _
  rw [View.set_slice_whole, Rect.mem_set_unit]
  exact Iff.rfl

/-- Every row of the result lies in the block of the point `row / 5000`. -/
theorem cover (i : S50000x64.Idx) : ∃ t : Fin cfg0.N, (cfg0.win 7).flush t = true ∧ i ∈ ((cfg0.win 7).blk t).view.set := by
  have h0 : (i 0).val < 50000 := (i 0).isLt
  have h1 : (i 1).val < 64 := (i 1).isLt
  have hN : cfg0.N = 10 := N_0
  have hlt : (i 0).val / 5000 < cfg0.N := by rw [hN]; omega
  obtain ⟨-, -, -, -, -, -, e70, e71⟩ := row_windows ⟨(i 0).val / 5000, hlt⟩
  have e70' : win0_7.index ⟨(i 0).val / 5000, hlt⟩ (0 : Fin 2) = (i 0).val / 5000 := e70
  refine ⟨⟨(i 0).val / 5000, hlt⟩, flush0_7 _, ?_⟩
  rw [mem_block]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e70']; omega
  | ⟨1, _⟩ =>
    show win0_7.index ⟨(i 0).val / 5000, hlt⟩ (1 : Fin 2) * 64 ≤ (i 1).val
      ∧ (i 1).val < win0_7.index ⟨(i 0).val / 5000, hlt⟩ (1 : Fin 2) * 64 + 64
    rw [e71]; omega

/-! ## At the kernel's memory: the array after the run -/

variable (m : (ℓ : Loc nD τ sig) → Buf (Elt Ideal) ℓ) (ρ : Dev nD → PrngReg)

/-- The update of the arguments as launched: the two aggregations of the edge features (by receiver, by sender), the
    node features, the weights and the biases. -/
def result (c : Dev nD) : S50000x64.Idx → EReal :=
  update (aggregate (m ((c : Thread nD τ).loc main_arg1)) (m ((c : Thread nD τ).loc main_arg3)))
    (aggregate (m ((c : Thread nD τ).loc main_arg1)) (m ((c : Thread nD τ).loc main_arg2)))
    (m ((c : Thread nD τ).loc main_arg0)) (m ((c : Thread nD τ).loc main_arg4)) (m ((c : Thread nD τ).loc main_arg5))
    (m ((c : Thread nD τ).loc main_arg6)) (m ((c : Thread nD τ).loc main_arg7))

/-- WHAT POINT `t` WRITES BACK is block `t` of the update of the arguments: the blocks the body loads are blocks of
    the arrays the region finds, and those are the two aggregates, the node features, the weights, and the biases
    viewed as rows. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero_offsets]
  simp only [View.ld_unit_zero (S := S5000x64) zero_offsets, View.ld_unit_zero (S := S192x256) zero_offsets,
    View.ld_unit_zero (S := S1x256) zero_offsets, View.ld_unit_zero (S := S256x64) zero_offsets,
    View.ld_unit_zero (S := S1x64) zero_offsets]
  exact point_writes t (iblk m c 0 t) (iblk m c 1 t) (iblk m c 2 t) (iblk m c 3 t) (iblk m c 4 t) (iblk m c 5 t) (iblk m c 6 t)
    _ _ _ _ _ _ _
    (fun r q p hp => (rows_read0 t (V m c (Pipeline.arrRef spec0 0)) r q p hp).trans (congrFun (entry_incoming m c) _))
    (fun r q p hp => (rows_read1 t (V m c (Pipeline.arrRef spec0 1)) r q p hp).trans (congrFun (entry_outgoing m c) _))
    (fun r q p hp => (rows_read2 t (V m c (Pipeline.arrRef spec0 2)) r q p hp).trans (congrFun (V_main_arg0 m c) _))
    ((whole_read3 t (V m c (Pipeline.arrRef spec0 3))).trans (V_main_arg4 m c))
    (fun k => (congrFun (whole_read4 t (V m c (Pipeline.arrRef spec0 4))) _).trans (entry_bias1 m c k))
    ((whole_read5 t (V m c (Pipeline.arrRef spec0 5))).trans (V_main_arg6 m c))
    (fun q => (congrFun (whole_read6 t (V m c (Pipeline.arrRef spec0 6))) _).trans (entry_bias2 m c q))

/-- THE ARRAY after the run is the update of the arguments: every point writes its block of it, and the blocks cover
    the array. -/
theorem final (c : Dev nD) : (dats m 0 c).arrAt 7 cfg0.N = result m c :=
  (dats m 0 c).arrAt_eq_of_cover 7 (result m c) (fun t _ => flushed_eq m c t) cover

/-- The kernel's run, read: the result array at the update of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Assemble

end
-- ==== Proof.RefValue.lean ====
/-
  The reference computes the node update.

  The reference lays the two aggregated arrays and the node features side by side into a 50000 × 192 array,
  multiplies by the first weight matrix, adds the first bias broadcast along the rows, rectifies against a zero array,
  multiplies by the second weight matrix and adds the second bias. Read at entry `(p, q)` one operation at a time,
  each matrix product is a sum over its contracted axis of products of entries, the bias broadcasts read the
  vectors' entries, and the side-by-side array reads the joined row: that is the perceptron's output `q` on node
  `p`'s joined row.
-/
import proofs.«160918_j71425306132748_2_alg».proof.Proof.Gen.ReferenceIdeal.Read
import proofs.«160918_j71425306132748_2_alg».proof.Proof.NodeUpdate

noncomputable section

namespace Cert.ReferenceIdeal.RefValue

open Cert.ReferenceIdeal Cert.ReferenceIdeal.Gen Cert.ReferenceIdeal.Read Idealize.ShloMosaic
open Idealize.ShloMosaic.ValueIdx Idealize.ShloMosaic.JoinColumns Cert.NodeUpdate

/-- The rectified hidden layer at `(p, k)`: hidden unit `k` of node `p`'s joined row. -/
theorem hidden_eq (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S192x256, .f32⟩ : BufTy).Contents (Elt Ideal))
    (x5 : (⟨S256, .f32⟩ : BufTy).Contents (Elt Ideal)) (p : Fin 50000) (k : Fin 256) :
    val_main_v11 (F := Ideal) x0 x1 x2 x3 x4 x5 (ix2 p k)
      = hiddenUnit (joinRow (val_main_v2 (F := Ideal) x1 x3) (val_main_v5 (F := Ideal) x1 x2) x0 p) x4 (fun k => x5 (ix1 k)) k := by
  have el : ∀ j : Fin 192, lidx_main_v7 (ix2 p k) j = ix2 p j := fun j =>
    funext fun a => Fin.ext (by match a with | ⟨0, _⟩ => rfl | ⟨1, _⟩ => rfl)
  have er : ∀ j : Fin 192, ridx_main_v7 (ix2 p k) j = ix2 j k := fun j =>
    funext fun a => Fin.ext (by match a with | ⟨0, _⟩ => rfl | ⟨1, _⟩ => rfl)
  have eb : idx_main_v8 (idx_main_v9 (ix2 p k)) = ix1 k :=
    funext fun a => Fin.ext (by match a with | ⟨0, _⟩ => rfl)
  rw [val_main_v11_apply, val_main_v10_apply, val_main_v7_apply, val_main_v9_apply, val_main_v8_apply,
    val_main_call0_v0_apply, val_main_call0_cst_apply, eb]
  simp only [Ideal.maximumf_def, Ideal.addf_def, Ideal.ofBits_def]
  unfold hiddenUnit
  refine congrArg₂ max (congrArg₂ (· + ·) (Finset.sum_congr rfl fun j _ => ?_) rfl) rfl
  rw [el j, er j]
  refine congrArg₂ (· * ·) ?_ rfl
  exact JoinColumns.concatenate_apply _ _ _ concatenates_S50000x64_S50000x64_S50000x64_S50000x192_d1 p j

/-- **The reference's result is the update** of the two aggregates, the node features, the weights and the biases. -/
theorem result_eq (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S192x256, .f32⟩ : BufTy).Contents (Elt Ideal))
    (x5 : (⟨S256, .f32⟩ : BufTy).Contents (Elt Ideal)) (x6 : (⟨S256x64, .f32⟩ : BufTy).Contents (Elt Ideal))
    (x7 : (⟨S64, .f32⟩ : BufTy).Contents (Elt Ideal)) :
    val_main_v15 (F := Ideal) x0 x1 x2 x3 x4 x5 x6 x7
      = update (val_main_v2 (F := Ideal) x1 x3) (val_main_v5 (F := Ideal) x1 x2) x0 x4 x5 x6 x7 := by
  funext i
  obtain ⟨p, q, rfl⟩ : ∃ (p : Fin 50000) (q : Fin 64), i = ix2 p q := ⟨i 0, i 1, eq_ix2 i⟩
  have el : ∀ k : Fin 256, lidx_main_v12 (ix2 p q) k = ix2 p k := fun k =>
    funext fun a => Fin.ext (by match a with | ⟨0, _⟩ => rfl | ⟨1, _⟩ => rfl)
  have er : ∀ k : Fin 256, ridx_main_v12 (ix2 p q) k = ix2 k q := fun k =>
    funext fun a => Fin.ext (by match a with | ⟨0, _⟩ => rfl | ⟨1, _⟩ => rfl)
  have eb : idx_main_v13 (idx_main_v14 (ix2 p q)) = ix1 q :=
    funext fun a => Fin.ext (by match a with | ⟨0, _⟩ => rfl)
  rw [val_main_v15_apply, val_main_v12_apply, val_main_v14_apply, val_main_v13_apply, eb, update_apply]
  simp only [Ideal.addf_def]
  unfold rowOut
  refine congrArg₂ (· + ·) (Finset.sum_congr rfl fun k _ => ?_) rfl
  rw [el k, er k, hidden_eq]

end Cert.ReferenceIdeal.RefValue

end
-- ==== Proof.lean ====
/-
  A message-passing node update, its blocked kernel against its reference, over the extended reals.

  Every node has the summed features of its incoming edges, the summed features of its outgoing edges and its own
  features, 64 numbers each; the 192 numbers laid side by side pass through a two-layer perceptron
  (192 → 256, rectified, → 64). Both programs aggregate the edge features in the same way, by the same scatter-add
  into zeros, before anything else; that term is carried unopened. The reference then applies the perceptron to all
  50000 rows at once. The kernel processes the rows in ten blocks of 5000, joining the three row blocks inside the
  body and narrowing its matrix operands' format on the way, which changes nothing at the ideal values. Since a
  row's output depends on that row, the weights and the biases alone, block `t` of the kernel's result is rows
  `5000 t … 5000 t + 4999` of the reference's, and the ten blocks cover every row. The two sums over the contracted
  axes are the same sums term by term, so no law beyond reading each operation at an index is needed, and the
  finiteness of the inputs is never used.

  The kernel read at the ideal values is the kernel's own text (no operation was rewritten on the way), so the
  preservation conjunct is trivial; the three frames are the generated runs.
-/
import proofs.«160918_j71425306132748_2_alg».proof.Defs
import proofs.«160918_j71425306132748_2_alg».proof.Proof.Gen.Kernel
import proofs.«160918_j71425306132748_2_alg».proof.Proof.Gen.Kernel.Skeleton
import proofs.«160918_j71425306132748_2_alg».proof.Proof.Gen.Kernel.Launch
import proofs.«160918_j71425306132748_2_alg».proof.Proof.Gen.Kernel.Points
import proofs.«160918_j71425306132748_2_alg».proof.Proof.Gen.Kernel.Frame
import proofs.«160918_j71425306132748_2_alg».proof.Proof.Gen.KernelIdeal
import proofs.«160918_j71425306132748_2_alg».proof.Proof.Gen.KernelIdeal.Skeleton
import proofs.«160918_j71425306132748_2_alg».proof.Proof.Gen.KernelIdeal.Launch
import proofs.«160918_j71425306132748_2_alg».proof.Proof.Gen.KernelIdeal.Points
import proofs.«160918_j71425306132748_2_alg».proof.Proof.Gen.KernelIdeal.Frame
import proofs.«160918_j71425306132748_2_alg».proof.Proof.Gen.ReferenceIdeal
import proofs.«160918_j71425306132748_2_alg».proof.Proof.Gen.Pre_finite_inputs
import proofs.«160918_j71425306132748_2_alg».proof.Proof.Gen.KernelIdeal.Value
import proofs.«160918_j71425306132748_2_alg».proof.Proof.Gen.ReferenceIdeal.Run
import proofs.«160918_j71425306132748_2_alg».proof.Proof.Gen.ReferenceIdeal.Read
import proofs.«160918_j71425306132748_2_alg».proof.Proof.Assemble
import proofs.«160918_j71425306132748_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the ideal values. -/
theorem preserves : Cert.preserves_Kernel_KernelIdeal := trivial

/-- The two programs aggregate the edge features by the same term: a scatter-add, with the same dimension numbers,
    of the features into zeros at the rows the index vector names. -/
theorem aggregate_by_receiver (feat : (⟨Cert.ReferenceIdeal.S800000x64, .f32⟩ : BufTy).Contents (Elt Ideal))
    (idx : (⟨Cert.ReferenceIdeal.S800000, .i32⟩ : BufTy).Contents (Elt Ideal)) :
    Cert.ReferenceIdeal.Read.val_main_v2 (F := Ideal) feat idx = Cert.KernelIdeal.RegionEntry.aggregate feat idx := rfl

theorem aggregate_by_sender (feat : (⟨Cert.ReferenceIdeal.S800000x64, .f32⟩ : BufTy).Contents (Elt Ideal))
    (idx : (⟨Cert.ReferenceIdeal.S800000, .i32⟩ : BufTy).Contents (Elt Ideal)) :
    Cert.ReferenceIdeal.Read.val_main_v5 (F := Ideal) feat idx = Cert.KernelIdeal.RegionEntry.aggregate feat idx := rfl

/-- From memories that agree on the arguments both programs end with the update of the arguments in their result
    arrays: the kernel's ten blocks assembled, the reference's operations read at an index. -/
theorem algebraic : Cert.algebraic_KernelIdeal_ReferenceIdeal := by
  intro m ρ m' ρ' _ hagree
  refine ⟨fun c => Cert.KernelIdeal.Assemble.result m c, Cert.KernelIdeal.Assemble.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v15_eq, Cert.ReferenceIdeal.RefValue.result_eq, aggregate_by_receiver,
    aggregate_by_sender, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
